-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg13 : FVec F S128x128 .f32) (main_arg14 : FVec F S128 .f32) (main_arg15 : FVec F S128x64 .f32) (main_arg16 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg15
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x64 .f32) (main_arg16 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x64 .f32) (main_arg16 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : IVec S600000 32) (main_arg2 : IVec S600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x64 .f32) (main_arg16 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S600000x1 : Shape := ⟨2, ![600000, 1]⟩
abbrev S100000x1 : Shape := ⟨2, ![100000, 1]⟩
abbrev S600000x128 : Shape := ⟨2, ![600000, 128]⟩
abbrev S5000x128 : Shape := ⟨2, ![5000, 128]⟩
abbrev S5000x1 : Shape := ⟨2, ![5000, 1]⟩
abbrev S1x128 : Shape := ⟨2, ![1, 128]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 66
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S_, .f32⟩
  | .hbm, ⟨18, _⟩ => ⟨S600000x1, .f32⟩
  | .hbm, ⟨19, _⟩ => ⟨S_, .f32⟩
  | .hbm, ⟨20, _⟩ => ⟨S100000x1, .f32⟩
  | .hbm, ⟨21, _⟩ => ⟨S600000x1, .i32⟩
  | .hbm, ⟨22, _⟩ => ⟨S100000x1, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S_, .f32⟩
  | .hbm, ⟨33, _⟩ => ⟨S100000x128, .f32⟩
  | .hbm, ⟨34, _⟩ => ⟨S600000x1, .i32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000x128, .f32⟩
  | .hbm, ⟨46, _⟩ => ⟨S_, .f32⟩
  | .hbm, ⟨47, _⟩ => ⟨S100000x128, .f32⟩
  | .hbm, ⟨48, _⟩ => ⟨S600000x1, .i32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x128, .f32⟩
  | .hbm, ⟨60, _⟩ => ⟨S_, .f32⟩
  | .hbm, ⟨61, _⟩ => ⟨S100000x128, .f32⟩
  | .hbm, ⟨62, _⟩ => ⟨S600000x1, .i32⟩
  | .hbm, ⟨63, _⟩ => ⟨S100000x128, .f32⟩
  | .hbm, ⟨64, _⟩ => ⟨S100000x128, .f32⟩
  | .hbm, ⟨65, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x1, .f32⟩
  | .local _ .vmem, ⟨29, _⟩ => ⟨S5000x1, .f32⟩
  | .local _ .vmem, ⟨30, _⟩ => ⟨S128x128, .f32⟩
  | .local _ .vmem, ⟨31, _⟩ => ⟨S128, .f32⟩
  | .local _ .vmem, ⟨32, _⟩ => ⟨S128x128, .f32⟩
  | .local _ .vmem, ⟨33, _⟩ => ⟨S128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x64, .f32⟩
  | .local _ .vmem, ⟨39, _⟩ => ⟨S64, .f32⟩
  | .local _ .vmem, ⟨40, _⟩ => ⟨S5000x64, .f32⟩
  | .local _ .vmem, ⟨41, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_c_7 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_8 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem3_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S600000x1 : S_.BroadcastsInDim S600000x1 (![] : Fin 0 → Fin S600000x1.rank)
  bcast_S_S100000x1 : S_.BroadcastsInDim S100000x1 (![] : Fin 0 → Fin S100000x1.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000x1_S600000x1_S600000x1_1_0_0_1_wf : ScatterDims.WF S100000x1 S600000x1 S600000x1 [1] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v36) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v36) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg15) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg16) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S600000x1 : Shape := ⟨2, ![600000, 1]⟩
abbrev S600000x128 : Shape := ⟨2, ![600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .f32⟩
  | .hbm, ⟨26, _⟩ => ⟨S_, .f32⟩
  | .hbm, ⟨27, _⟩ => ⟨S100000x128, .f32⟩
  | .hbm, ⟨28, _⟩ => ⟨S600000x1, .i32⟩
  | .hbm, ⟨29, _⟩ => ⟨S100000x128, .f32⟩
  | .hbm, ⟨30, _⟩ => ⟨S_, .f32⟩
  | .hbm, ⟨31, _⟩ => ⟨S600000x1, .f32⟩
  | .hbm, ⟨32, _⟩ => ⟨S_, .f32⟩
  | .hbm, ⟨33, _⟩ => ⟨S100000x1, .f32⟩
  | .hbm, ⟨34, _⟩ => ⟨S600000x1, .i32⟩
  | .hbm, ⟨35, _⟩ => ⟨S100000x1, .f32⟩
  | .hbm, ⟨36, _⟩ => ⟨S_, .f32⟩
  | .hbm, ⟨37, _⟩ => ⟨S100000x1, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000x128, .f32⟩
  | .hbm, ⟨62, _⟩ => ⟨S_, .f32⟩
  | .hbm, ⟨63, _⟩ => ⟨S100000x128, .f32⟩
  | .hbm, ⟨64, _⟩ => ⟨S600000x1, .i32⟩
  | .hbm, ⟨65, _⟩ => ⟨S100000x128, .f32⟩
  | .hbm, ⟨66, _⟩ => ⟨S_, .f32⟩
  | .hbm, ⟨67, _⟩ => ⟨S600000x1, .f32⟩
  | .hbm, ⟨68, _⟩ => ⟨S_, .f32⟩
  | .hbm, ⟨69, _⟩ => ⟨S100000x1, .f32⟩
  | .hbm, ⟨70, _⟩ => ⟨S600000x1, .i32⟩
  | .hbm, ⟨71, _⟩ => ⟨S100000x1, .f32⟩
  | .hbm, ⟨72, _⟩ => ⟨S_, .f32⟩
  | .hbm, ⟨73, _⟩ => ⟨S100000x1, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S_, .i32⟩
  | .hbm, ⟨90, _⟩ => ⟨S600000, .i32⟩
  | .hbm, ⟨91, _⟩ => ⟨S600000, .i1⟩
  | .hbm, ⟨92, _⟩ => ⟨S_, .i32⟩
  | .hbm, ⟨93, _⟩ => ⟨S600000, .i32⟩
  | .hbm, ⟨94, _⟩ => ⟨S600000, .i32⟩
  | .hbm, ⟨95, _⟩ => ⟨S600000, .i32⟩
  | .hbm, ⟨96, _⟩ => ⟨S600000x1, .i32⟩
  | .hbm, ⟨97, _⟩ => ⟨S600000x128, .f32⟩
  | .hbm, ⟨98, _⟩ => ⟨S_, .f32⟩
  | .hbm, ⟨99, _⟩ => ⟨S100000x128, .f32⟩
  | .hbm, ⟨100, _⟩ => ⟨S600000x1, .i32⟩
  | .hbm, ⟨101, _⟩ => ⟨S100000x128, .f32⟩
  | .hbm, ⟨102, _⟩ => ⟨S_, .f32⟩
  | .hbm, ⟨103, _⟩ => ⟨S600000x1, .f32⟩
  | .hbm, ⟨104, _⟩ => ⟨S_, .f32⟩
  | .hbm, ⟨105, _⟩ => ⟨S100000x1, .f32⟩
  | .hbm, ⟨106, _⟩ => ⟨S600000x1, .i32⟩
  | .hbm, ⟨107, _⟩ => ⟨S100000x1, .f32⟩
  | .hbm, ⟨108, _⟩ => ⟨S_, .f32⟩
  | .hbm, ⟨109, _⟩ => ⟨S100000x1, .f32⟩
  | .hbm, ⟨110, _⟩ => ⟨S100000x1, .f32⟩
  | .hbm, ⟨111, _⟩ => ⟨S100000x128, .f32⟩
  | .hbm, ⟨112, _⟩ => ⟨S100000x128, .f32⟩
  | .hbm, ⟨113, _⟩ => ⟨S100000x128, .f32⟩
  | .hbm, ⟨114, _⟩ => ⟨S1x128, .f32⟩
  | .hbm, ⟨115, _⟩ => ⟨S100000x128, .f32⟩
  | .hbm, ⟨116, _⟩ => ⟨S100000x128, .f32⟩
  | .hbm, ⟨117, _⟩ => ⟨S100000x128, .f32⟩
  | .hbm, ⟨118, _⟩ => ⟨S1x128, .f32⟩
  | .hbm, ⟨119, _⟩ => ⟨S100000x128, .f32⟩
  | .hbm, ⟨120, _⟩ => ⟨S100000x128, .f32⟩
  | .hbm, ⟨121, _⟩ => ⟨S100000x128, .f32⟩
  | .hbm, ⟨122, _⟩ => ⟨S100000x64, .f32⟩
  | .hbm, ⟨123, _⟩ => ⟨S1x64, .f32⟩
  | .hbm, ⟨124, _⟩ => ⟨S100000x64, .f32⟩
  | .hbm, ⟨125, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call0_cst : Ref sig .tc := ⟨.hbm, 50, rfl⟩
abbrev main_call0_v0 : Ref sig .tc := ⟨.hbm, 51, rfl⟩
abbrev main_v27 : Ref sig .tc := ⟨.hbm, 52, rfl⟩
abbrev main_c_4 : Ref sig .tc := ⟨.hbm, 53, rfl⟩
abbrev main_v28 : Ref sig .tc := ⟨.hbm, 54, rfl⟩
abbrev main_v29 : Ref sig .tc := ⟨.hbm, 55, rfl⟩
abbrev main_c_5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_9 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call1_cst : Ref sig .tc := ⟨.hbm, 86, rfl⟩
abbrev main_call1_v0 : Ref sig .tc := ⟨.hbm, 87, rfl⟩
abbrev main_v55 : Ref sig .tc := ⟨.hbm, 88, rfl⟩
abbrev main_c_10 : Ref sig .tc := ⟨.hbm, 89, rfl⟩
abbrev main_v56 : Ref sig .tc := ⟨.hbm, 90, rfl⟩
abbrev main_v57 : Ref sig .tc := ⟨.hbm, 91, rfl⟩
abbrev main_c_11 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_12 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_13 : Ref sig .tc := ⟨.hbm, 102, rfl⟩
abbrev main_v66 : Ref sig .tc := ⟨.hbm, 103, rfl⟩
abbrev main_cst_14 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_15 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibMatrixReads.lean ====
/-
  Matrices read entry by entry, at the exact extended-real values.

  * A product of an m×k matrix with a k×n matrix accumulated into a zero matrix has, at row a and column b, the entry
    ∑ c, A(a, c) · B(c, b): the zero it starts from is the extended real 0, and 0 + x = x.
  * A column of m entries (an m×1 matrix) copied along n columns has at (a, b) the column's entry (a, 0), in both
    spellings of that copy: the one that aligns trailing axes and the one that names the axes.
  * A vector of n entries laid as a 1×n matrix by naming axis 1 has at (u, b) the vector's entry b.
-/
import Idealize.ShloMosaic.Lib.StackMember
import Idealize.ShloMosaic.Lib.KernelVsHost
import Idealize.ShloMosaic.Lib.ValueLayout
import Idealize.ShloMosaic.PureOps.Ideal.Laws

namespace MatrixReads

open Idealize.ShloMosaic Idealize.ShloMosaic.ValueIdx Idealize.ShloMosaic.StackMember

/-- The product of an m×k and a k×n matrix accumulated into the zero matrix, at (a, b): the sum over the shared
    coordinate of the products of the entries. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact dotGeneral_plain_apply prec A B a b

variable {α : Type}

/-- A column (an a×1 matrix) copied along b columns by aligning trailing axes: at (p, c) it is the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same copy with the axes named (axis 0 to axis 0, axis 1 to axis 1). -/
theorem broadcastInDim_a1_ab_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector laid as a one-row matrix by naming axis 1: at (u, c) it is the vector at c. -/
theorem broadcastInDim_b_1b_apply {b : ℕ} (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end MatrixReads
-- ==== Proof.Cell.lean ====
/-
  One entry of one graph-convolution layer, as a function of the row of node features, the row of summed neighbour
  features, the node's in-degree, and the columns of the two weight matrices with their bias entries:

      (∑ k, h k · ws k + bs)  +  (∑ k, (m k / max d 1) · wn k + bn).

  The kernel adds the four terms from the left, ((A + bs) + B) + bn; the reference adds the two halves, (A + bs) + (B + bn).
  Addition of extended reals is associative (also at the infinities), so the two are one number.
-/
import Idealize.ShloMosaic.PureOps.Ideal

noncomputable section

namespace Sage

open Idealize.ShloMosaic
open scoped BigOperators

/-- The float word of 1.0 and of 0.0 as extended reals (never evaluated: the same words stand on both sides). -/
abbrev one : EReal := Ideal.ofBits .f32 0x3F800000#32
abbrev zero : EReal := Ideal.ofBits .f32 0x00000000#32

/-- The mean over the neighbours: the summed neighbour feature divided by the in-degree, a node without in-edges
    dividing by one. -/
def mean (m d : EReal) : EReal := Ideal.div m (max d one)

/-- The entry as the reference groups it. -/
def cellR {K : Nat} (h m : Fin K → EReal) (d : EReal) (ws : Fin K → EReal) (bs : EReal) (wn : Fin K → EReal) (bn : EReal) : EReal :=
  (∑ k, h k * ws k + bs) + (∑ k, mean (m k) d * wn k + bn)

/-- The entry as the kernel groups it. -/
def cellK {K : Nat} (h m : Fin K → EReal) (d : EReal) (ws : Fin K → EReal) (bs : EReal) (wn : Fin K → EReal) (bn : EReal) : EReal :=
  ((∑ k, h k * ws k + bs) + ∑ k, mean (m k) d * wn k) + bn

/-- Associativity of the sum of the four terms. -/
theorem cellK_eq_cellR {K : Nat} (h m : Fin K → EReal) (d : EReal) (ws : Fin K → EReal) (bs : EReal) (wn : Fin K → EReal) (bn : EReal) :
    cellK h m d ws bs wn bn = cellR h m d ws bs wn bn := by
  unfold cellK cellR
  exact add_assoc _ _ _

/-- One entry of the closing linear map. -/
def lin {K : Nat} (h w : Fin K → EReal) (b : EReal) : EReal := ∑ k, h k * w k + b

end Sage

end
-- ==== Proof.RefNet.lean ====
/-
  The reference network as a composition of five whole-array functions, and each of them read at one entry.

  * `degree dst`: the number of edges ending at each node (ones scattered and added along the destinations).
  * `neighbourSum h src dst`: for each node, the sum of the feature rows `h[src e]` over the edges `e` ending at it
    (a negative source index counts from the end, as jnp indexing does).
  * `preact h msg deg Ws bs Wn bn`: (h · Ws + bs) + ((msg / max(deg, 1)) · Wn + bn).
  * `relu`: the maximum with zero.  * `out h Wo bo`: h · Wo + bo.

  The gather and the scatter are never opened: the kernel's program applies the same two operations to the same
  arrays, so they stay one opaque function on both sides.
-/
import proofs.«103576_j84670985273715_1_alg».proof.Proof.Gen.ReferenceIdeal.Run
import proofs.«103576_j84670985273715_1_alg».proof.Proof.LibMatrixReads
import proofs.«103576_j84670985273715_1_alg».proof.Proof.Cell

noncomputable section

namespace Cert.ReferenceIdeal.Net

open Cert.ReferenceIdeal Cert.ReferenceIdeal.Gen Idealize.ShloMosaic Idealize.ShloMosaic.TcCoe Idealize.SL.Sem
open Idealize.ShloMosaic.ValueIdx Idealize.ShloMosaic.StackMember MatrixReads

abbrev Mat := FVec Ideal S100000x128 .f32
abbrev Col := FVec Ideal S100000x1 .f32
abbrev Edges := IVec S600000 32
abbrev W128 := FVec Ideal S128x128 .f32
abbrev B128 := FVec Ideal S128 .f32
abbrev W64 := FVec Ideal S128x64 .f32
abbrev B64 := FVec Ideal S64 .f32
abbrev Out := FVec Ideal S100000x64 .f32

/-- The in-degree of every node. -/
def degree (dst : Edges) : Col :=
  Host.scatterAdd scatter_S100000x1_S600000x1_S600000x1_1_0_0_1
    (broadcastInDim S100000x1 ![] bcast_S_S100000x1 (constant S_ .f32 0x00000000#32))
    (broadcastInDim S600000x1 ![0] bcast_S600000_S600000x1_0 dst)
    (broadcastInDim S600000x1 ![] bcast_S_S600000x1 (constant S_ .f32 0x3F800000#32))

/-- The sum of the neighbours' feature rows, node by node. -/
def neighbourSum (h : Mat) (src dst : Edges) : Mat :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 dst)
    (Host.gather gather_S100000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 100000#32))) src)))

/-- One layer before its activation. -/
def preact (h msg : Mat) (deg : Col) (Ws : W128) (bs : B128) (Wn : W128) (bn : B128) : Mat :=
  addf
    (addf (Host.dotGeneral dot_S100000x128_S128x128_S100000x128_1_0_0_1_n_n none h Ws)
      (broadcastInDim S100000x128 ![0, 1] bcast_S1x128_S100000x128_0_1 (broadcastInDim S1x128 ![1] bcast_S128_S1x128_1 bs)))
    (addf
      (Host.dotGeneral dot_S100000x128_S128x128_S100000x128_1_0_0_1_n_n none
        (Host.divf msg (broadcastInDim S100000x128 ![0, 1] bcast_S100000x1_S100000x128_0_1
          (maximumf deg (broadcastInDim S100000x1 ![] bcast_S_S100000x1 (constant S_ .f32 0x3F800000#32))))) Wn)
      (broadcastInDim S100000x128 ![0, 1] bcast_S1x128_S100000x128_0_1 (broadcastInDim S1x128 ![1] bcast_S128_S1x128_1 bn)))

/-- The activation. -/
def relu (x : Mat) : Mat :=
  maximumf x (broadcastInDim S100000x128 ![] bcast_S_S100000x128 (constant S_ .f32 0x00000000#32))

/-- The closing linear map. -/
def out (h : Mat) (Wo : W64) (bo : B64) : Out :=
  addf (Host.dotGeneral dot_S100000x128_S128x64_S100000x64_1_0_0_1_n_n none h Wo)
    (broadcastInDim S100000x64 ![0, 1] bcast_S1x64_S100000x64_0_1 (broadcastInDim S1x64 ![1] bcast_S64_S1x64_1 bo))

/-- The whole network: three layers (the first two activated) over one graph, then the linear map. -/
def net (a0 : Mat) (a1 a2 : Edges) (a3 : W128) (a4 : B128) (a5 : W128) (a6 : B128) (a7 : W128) (a8 : B128) (a9 : W128)
    (a10 : B128) (a11 : W128) (a12 : B128) (a13 : W128) (a14 : B128) (a15 : W64) (a16 : B64) : Out :=
  let h1 := relu (preact a0 (neighbourSum a0 a1 a2) (degree a2) a3 a4 a5 a6)
  let h2 := relu (preact h1 (neighbourSum h1 a1 a2) (degree a2) a7 a8 a9 a10)
  let h3 := preact h2 (neighbourSum h2 a1 a2) (degree a2) a11 a12 a13 a14
  out h3 a15 a16

/-! ## Read at an entry -/

theorem dot128_plain : dot_S100000x128_S128x128_S100000x128_1_0_0_1_n_n = DotDims.plain 100000 128 128 := rfl
theorem dot64_plain : dot_S100000x128_S128x64_S100000x64_1_0_0_1_n_n = DotDims.plain 100000 128 64 := rfl

/-- A bias vector laid along every row, at (r, q), is its entry q. -/
theorem bias128_apply (b : B128) (r : Fin 100000) (q : Fin 128) :
    broadcastInDim S100000x128 ![0, 1] bcast_S1x128_S100000x128_0_1 (broadcastInDim S1x128 ![1] bcast_S128_S1x128_1 b) (ix2 r q)
      = b (ix1 q) :=
  (broadcastInDim_oneRow_apply bcast_S1x128_S100000x128_0_1 _ r q).trans (broadcastInDim_b_1b_apply bcast_S128_S1x128_1 b 0 q)

theorem bias64_apply (b : B64) (r : Fin 100000) (q : Fin 64) :
    broadcastInDim S100000x64 ![0, 1] bcast_S1x64_S100000x64_0_1 (broadcastInDim S1x64 ![1] bcast_S64_S1x64_1 b) (ix2 r q)
      = b (ix1 q) :=
  (broadcastInDim_oneRow_apply bcast_S1x64_S100000x64_0_1 _ r q).trans (broadcastInDim_b_1b_apply bcast_S64_S1x64_1 b 0 q)

/-- The mean of the neighbours at (r, k): the summed row entry over the in-degree of node r, at least one. -/
theorem mean_apply (msg : Mat) (deg : Col) (r : Fin 100000) (k : Fin 128) :
    Host.divf msg (broadcastInDim S100000x128 ![0, 1] bcast_S100000x1_S100000x128_0_1
        (maximumf deg (broadcastInDim S100000x1 ![] bcast_S_S100000x1 (constant S_ .f32 0x3F800000#32)))) (ix2 r k)
      = Sage.mean (msg (ix2 r k)) (deg (ix2 r (0 : Fin 1))) := by
  show Ideal.div (msg (ix2 r k)) (broadcastInDim S100000x128 ![0, 1] bcast_S100000x1_S100000x128_0_1
        (maximumf deg (broadcastInDim S100000x1 ![] bcast_S_S100000x1 (constant S_ .f32 0x3F800000#32))) (ix2 r k)) = _
  rw [broadcastInDim_a1_ab_apply]
  rfl

/-- One entry of a layer before its activation. -/
theorem preact_apply (h msg : Mat) (deg : Col) (Ws : W128) (bs : B128) (Wn : W128) (bn : B128) (r : Fin 100000) (q : Fin 128) :
    preact h msg deg Ws bs Wn bn (ix2 r q)
      = Sage.cellR (fun k => h (ix2 r k)) (fun k => msg (ix2 r k)) (deg (ix2 r (0 : Fin 1))) (fun k => Ws (ix2 k q)) (bs (ix1 q))
          (fun k => Wn (ix2 k q)) (bn (ix1 q)) := by
  unfold preact Sage.cellR
  rw [dot128_plain]
  show (Host.dotGeneral (DotDims.plain 100000 128 128) none h Ws (ix2 r q) + _) + (Host.dotGeneral (DotDims.plain 100000 128 128) none _ Wn (ix2 r q) + _) = _
  rw [dotGeneral_plain_apply, dotGeneral_plain_apply, bias128_apply, bias128_apply]
  refine congrArg₂ (· + ·) rfl (congrArg₂ (· + ·) (Finset.sum_congr rfl fun k _ => ?_) rfl)
  rw [mean_apply]

/-- One entry of the activation. -/
theorem relu_apply (x : Mat) (i : S100000x128.Idx) : relu x i = max (x i) Sage.zero := rfl

/-- One entry of the closing linear map. -/
theorem out_apply (h : Mat) (Wo : W64) (bo : B64) (r : Fin 100000) (q : Fin 64) :
    out h Wo bo (ix2 r q) = Sage.lin (fun k => h (ix2 r k)) (fun k => Wo (ix2 k q)) (bo (ix1 q)) := by
  unfold out Sage.lin
  rw [dot64_plain]
  show Host.dotGeneral (DotDims.plain 100000 128 64) none h Wo (ix2 r q) + _ = _
  rw [dotGeneral_plain_apply, bias64_apply]

/-! ## The reference's result is the network of its arguments -/

set_option maxRecDepth 8192 in
theorem res_eq (m : (ℓ : Loc nD τ sig) → Buf (Elt Ideal) ℓ) (c : Dev nD) :
    Cert.ReferenceIdeal.Value.res_main_v86 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) := by
  unfold Cert.ReferenceIdeal.Value.res_main_v86 net out relu preact neighbourSum degree
  rfl

end Cert.ReferenceIdeal.Net

end
-- ==== Proof.RunValue.lean ====
/-
  The kernel program's run with its result named: every weakly fair execution ends, nothing faulting, with the result
  buffer at what the last region's write-backs leave in it (the fold of the program's stretches and regions from the
  launch memory, read at the result buffer) and every argument as launched.
-/
import proofs.«103576_j84670985273715_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last boundary's contents. -/
theorem run_out : θ_run defs (onTc (τ := τ) (main (F := F))) ⟨m, fun _ => 0, ρ⟩ (fun r => ∀ c : Dev nD,
      r.2.mem ((c.tc : Thread nD τ).loc main_v37) = W7 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v37 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c)⟩)

end Cert.KernelIdeal.RunValue

end
-- ==== Proof.KernelEntry.lean ====
/-
  What the kernel bodies store, read at one entry of the stored block.

  A combine body holds a block of 5000 rows of node features `x0`, of summed neighbour features `x1` and of in-degrees
  `x2`, and the whole weights and biases `x3 … x6`. At row p and column q it stores

      ((∑ k, x0(p,k) · x3(k,q) + x4 q) + ∑ k, (x1(p,k) / max(x2(p,0), 1)) · x5(k,q)) + x6 q,

  clamped below at zero in the first two layers. The closing body stores ∑ k, x0(p,k) · x1(k,q) + x2 q.
  The two matrix products start from a zero block, which adds nothing.
-/
import proofs.«103576_j84670985273715_1_alg».proof.Proof.Gen.KernelIdeal.Skeleton
import proofs.«103576_j84670985273715_1_alg».proof.Proof.LibMatrixReads
import proofs.«103576_j84670985273715_1_alg».proof.Proof.Cell

noncomputable section

namespace Cert.KernelIdeal.Entry

open Cert.KernelIdeal Cert.KernelIdeal.Gen Idealize.ShloMosaic Idealize.SL.Sem
open Idealize.ShloMosaic.ValueIdx MatrixReads

theorem dot128_plain : dot_S5000x128_S128x128_S5000x128_1_0_0_1_n_n = DotDims.plain 5000 128 128 := rfl
theorem dot64_plain : dot_S5000x128_S128x64_S5000x64_1_0_0_1_n_n = DotDims.plain 5000 128 64 := rfl

/-- A bias vector laid along every row of the block, at (p, q), is its entry q. -/
theorem bias128_apply (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

theorem bias64_apply (b : FVec Ideal S64 .f32) (p : Fin 5000) (q : Fin 64) :
    broadcastTo S5000x64 (shapeCast S1x64 b shapeCasts_S64_S1x64) broadcasts_S1x64_S5000x64 (ix2 p q) = b (ix1 q) :=
  (broadcastTo_1b_ab_apply _ broadcasts_S1x64_S5000x64 p q).trans (shapeCast_a_1a_apply b shapeCasts_S64_S1x64 0 q)

/-- The mean of the neighbours inside the block, at (p, k). -/
theorem mean_apply (x1 : FVec Ideal S5000x128 .f32) (x2 : FVec Ideal S5000x1 .f32) (p : Fin 5000) (k : Fin 128) :
    divf (shapeCast S5000x128 x1 shapeCasts_S5000x128_S5000x128)
        (broadcastTo S5000x128 (maximumf (shapeCast S5000x1 x2 shapeCasts_S5000x1_S5000x1)
          (broadcast S5000x1 (Scalar.ofBits (F := Ideal) .f32 0x3F800000#32))) broadcasts_S5000x1_S5000x128) (ix2 p k)
      = Sage.mean (x1 (ix2 p k)) (x2 (ix2 p (0 : Fin 1))) := by
  rw [shapeCast_self, shapeCast_self]
  show Ideal.div (x1 (ix2 p k)) (broadcastTo S5000x128 (maximumf x2 (broadcast S5000x1 (Scalar.ofBits (F := Ideal) .f32 0x3F800000#32)))
    broadcasts_S5000x1_S5000x128 (ix2 p k)) = _
  rw [broadcastTo_a1_ab_apply]
  rfl

/-- The sum the second product contributes, entry by entry. -/
theorem meanSum_eq (x1 : FVec Ideal S5000x128 .f32) (x2 : FVec Ideal S5000x1 .f32) (x5 : FVec Ideal S128x128 .f32) (p : Fin 5000) (q : Fin 128) :
    matmul (DotDims.plain 5000 128 128) none (divf (shapeCast S5000x128 x1 shapeCasts_S5000x128_S5000x128)
        (broadcastTo S5000x128 (maximumf (shapeCast S5000x1 x2 shapeCasts_S5000x1_S5000x1)
          (broadcast S5000x1 (Scalar.ofBits (F := Ideal) .f32 0x3F800000#32))) broadcasts_S5000x1_S5000x128)) x5
        (constant (F := Ideal) S5000x128 .f32 0x00000000#32) (ix2 p q)
      = ∑ k : Fin 128, Sage.mean (x1 (ix2 p k)) (x2 (ix2 p (0 : Fin 1))) * x5 (ix2 k q) := by
  rw [matmul_plain_zero_apply]
  exact Finset.sum_congr rfl fun k _ => by rw [mean_apply]

/-- First layer: the stored entry. -/
theorem pay0_apply (x0 x1 : Vec Ideal S5000x128 .f32) (x2 : Vec Ideal S5000x1 .f32) (x3 : Vec Ideal S128x128 .f32)
    (x4 : Vec Ideal S128 .f32) (x5 : Vec Ideal S128x128 .f32) (x6 : Vec Ideal S128 .f32) (p : Fin 5000) (q : Fin 128) :
    k0_pay1 x0 x1 x2 x3 x4 x5 x6 (ix2 p q)
      = max (Sage.cellK (fun k => x0 (ix2 p k)) (fun k => x1 (ix2 p k)) (x2 (ix2 p (0 : Fin 1))) (fun k => x3 (ix2 k q)) (x4 (ix1 q))
          (fun k => x5 (ix2 k q)) (x6 (ix1 q))) Sage.zero := by
  unfold k0_pay1 Sage.cellK
  dsimp only
  rw [dot128_plain]
  show max (((matmul (DotDims.plain 5000 128 128) none x0 x3 (constant (F := Ideal) S5000x128 .f32 0x00000000#32) (ix2 p q) + _) + _) + _) _ = _
  rw [matmul_plain_zero_apply, bias128_apply, meanSum_eq, bias128_apply]
  rfl

/-- Second layer: the stored entry. -/
theorem pay1_apply (x0 x1 : Vec Ideal S5000x128 .f32) (x2 : Vec Ideal S5000x1 .f32) (x3 : Vec Ideal S128x128 .f32)
    (x4 : Vec Ideal S128 .f32) (x5 : Vec Ideal S128x128 .f32) (x6 : Vec Ideal S128 .f32) (p : Fin 5000) (q : Fin 128) :
    k1_pay1 x0 x1 x2 x3 x4 x5 x6 (ix2 p q)
      = max (Sage.cellK (fun k => x0 (ix2 p k)) (fun k => x1 (ix2 p k)) (x2 (ix2 p (0 : Fin 1))) (fun k => x3 (ix2 k q)) (x4 (ix1 q))
          (fun k => x5 (ix2 k q)) (x6 (ix1 q))) Sage.zero := by
  unfold k1_pay1 Sage.cellK
  dsimp only
  rw [dot128_plain, shapeCast_self x0]
  show max (((matmul (DotDims.plain 5000 128 128) none x0 x3 (constant (F := Ideal) S5000x128 .f32 0x00000000#32) (ix2 p q) + _) + _) + _) _ = _
  rw [matmul_plain_zero_apply, bias128_apply, meanSum_eq, bias128_apply]
  rfl

/-- Third layer (no clamp): the stored entry. -/
theorem pay2_apply (x0 x1 : Vec Ideal S5000x128 .f32) (x2 : Vec Ideal S5000x1 .f32) (x3 : Vec Ideal S128x128 .f32)
    (x4 : Vec Ideal S128 .f32) (x5 : Vec Ideal S128x128 .f32) (x6 : Vec Ideal S128 .f32) (p : Fin 5000) (q : Fin 128) :
    k2_pay1 x0 x1 x2 x3 x4 x5 x6 (ix2 p q)
      = Sage.cellK (fun k => x0 (ix2 p k)) (fun k => x1 (ix2 p k)) (x2 (ix2 p (0 : Fin 1))) (fun k => x3 (ix2 k q)) (x4 (ix1 q))
          (fun k => x5 (ix2 k q)) (x6 (ix1 q)) := by
  unfold k2_pay1 Sage.cellK
  dsimp only
  rw [dot128_plain, shapeCast_self x0]
  show ((matmul (DotDims.plain 5000 128 128) none x0 x3 (constant (F := Ideal) S5000x128 .f32 0x00000000#32) (ix2 p q) + _) + _) + _ = _
  rw [matmul_plain_zero_apply, bias128_apply, meanSum_eq, bias128_apply]

/-- The closing linear map: the stored entry. -/
theorem pay3_apply (x0 : Vec Ideal S5000x128 .f32) (x1 : Vec Ideal S128x64 .f32) (x2 : Vec Ideal S64 .f32) (p : Fin 5000) (q : Fin 64) :
    k3_pay1 x0 x1 x2 (ix2 p q) = Sage.lin (fun k => x0 (ix2 p k)) (fun k => x1 (ix2 k q)) (x2 (ix1 q)) := by
  unfold k3_pay1 Sage.lin
  dsimp only
  rw [dot64_plain, shapeCast_self x0]
  show matmul (DotDims.plain 5000 128 64) none x0 x1 (constant (F := Ideal) S5000x64 .f32 0x00000000#32) (ix2 p q) + _ = _
  rw [matmul_plain_zero_apply, bias64_apply]

end Cert.KernelIdeal.Entry

end
-- ==== Proof.Layer0.lean ====
/-
  Layer 1 of the kernel program: what its region leaves in the result array, as one whole-array function of the
  arrays the region finds.

  The region walks 20 blocks of 5000 rows. At block t the body sees rows 5000·t … 5000·t + 4999 of the node features, of
  the summed neighbour features and of the in-degrees, and the whole weights and biases, and writes back rows
  5000·t … 5000·t + 4999 of the result. Row r of the result depends only on row r of the inputs, so each written block
  is the restriction of the reference's layer to those rows; the 20 blocks cover all 100000 rows (row r lies in block
  r / 5000).
-/
import proofs.«103576_j84670985273715_1_alg».proof.Proof.Gen.KernelIdeal.Frame
import proofs.«103576_j84670985273715_1_alg».proof.Proof.KernelEntry
import proofs.«103576_j84670985273715_1_alg».proof.Proof.RefNet

set_option maxRecDepth 16384

noncomputable section

namespace Cert.KernelIdeal.Layer0

open Cert.KernelIdeal Cert.KernelIdeal.Gen Idealize.ShloMosaic Idealize.ShloMosaic.TcCoe Idealize.SL.Sem
open Idealize.ShloMosaic.ValueIdx
open Idealize.ShloMosaic.Pipeline (Dat)
open Cert.ReferenceIdeal (Net.Mat Net.Col Net.W128 Net.B128)

local notation "Net.relu" => Cert.ReferenceIdeal.Net.relu
local notation "Net.preact" => Cert.ReferenceIdeal.Net.preact

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-blocked inputs and the result sit at block row t, the weights and
    biases at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0
    ∧ t.val < 20 :=
  (by decide +kernel : ∀ t : Fin grid0.N, _)

/-- One stored entry of block T is the reference layer's entry at row 5000·T + p, when the loaded blocks are rows
    5000·T … of the arrays and the whole weights. -/
theorem entry_eq (h msg : Net.Mat) (deg : Net.Col) (Ws : Net.W128) (bs : Net.B128) (Wn : Net.W128) (bn : Net.B128)
    (T : Nat) (hT : T < 20)
    (x0 x1 : Vec Ideal S5000x128 .f32) (x2 : Vec Ideal S5000x1 .f32) (x3 : Vec Ideal S128x128 .f32)
    (x4 : Vec Ideal S128 .f32) (x5 : Vec Ideal S128x128 .f32) (x6 : Vec Ideal S128 .f32)
    (e0 : ∀ (p : Fin 5000) (k : Fin 128), x0 (ix2 p k) = h (ix2 (⟨T * 5000 + p.val, by omega⟩ : Fin 100000) k))
    (e1 : ∀ (p : Fin 5000) (k : Fin 128), x1 (ix2 p k) = msg (ix2 (⟨T * 5000 + p.val, by omega⟩ : Fin 100000) k))
    (e2 : ∀ (p : Fin 5000), x2 (ix2 p (0 : Fin 1)) = deg (ix2 (⟨T * 5000 + p.val, by omega⟩ : Fin 100000) (0 : Fin 1)))
    (e3 : ∀ (k : Fin 128) (q : Fin 128), x3 (ix2 k q) = Ws (ix2 k q))
    (e4 : ∀ q : Fin 128, x4 (ix1 q) = bs (ix1 q))
    (e5 : ∀ (k : Fin 128) (q : Fin 128), x5 (ix2 k q) = Wn (ix2 k q))
    (e6 : ∀ q : Fin 128, x6 (ix1 q) = bn (ix1 q))
    (p : Fin 5000) (q : Fin 128) :
    k0_pay1 x0 x1 x2 x3 x4 x5 x6 (ix2 p q)
      = Net.relu (Net.preact h msg deg Ws bs Wn bn) (ix2 (⟨T * 5000 + p.val, by omega⟩ : Fin 100000) q) := by
  rw [Entry.pay0_apply, Cert.ReferenceIdeal.Net.relu_apply, Cert.ReferenceIdeal.Net.preact_apply, Sage.cellK_eq_cellR]
  simp only [e0, e1, e2, e3, e4, e5, e6]

variable (V : (c : Dev nD) → (b : Ref sig .tc) → Buf (Elt Ideal) ((c : Thread nD τ).loc b))

/-- WHAT POINT t WRITES BACK is block t of the reference's layer of the arrays the region finds. -/
theorem flushed_eq (c : Dev nD) (t : Fin cfg0.N) :
    (dat0 V c).flushed 7 t = ((cfg0.win 7).blk t).view.read (Elt Ideal)
      (Net.relu (Net.preact (V c main_arg0) (V c main_v13) (V c main_v3) (V c main_arg3) (V c main_arg4) (V c main_arg5) (V c main_arg6))) := by
  show (cfg0.win 7).cut (grid0.coords t) ((dat0 V c).after 7 t) = _
  rw [after0_7]
  unfold out0_7
  rw [View.canon_unit_zero hz2]
  simp only [View.ld_unit_zero (S := S5000x128) hz2, View.ld_unit_zero (S := S5000x1) hz2,
    View.ld_unit_zero (S := S128x128) hz2, View.ld_unit_zero (S := S128) hz1]
  obtain ⟨a00, a01, a10, a11, a20, a21, a30, a31, a40, a50, a51, a60, a70, a71, hT⟩ := idx_facts t
  funext y
  obtain ⟨p, q, rfl⟩ : ∃ (p : Fin 5000) (q : Fin 128), y = ix2 p q := ⟨y 0, y 1, eq_ix2 y⟩
  have key := entry_eq (V c main_arg0) (V c main_v13) (V c main_v3) (V c main_arg3) (V c main_arg4) (V c main_arg5) (V c main_arg6) t.val hT
    (iblk0 V c 0 t) (iblk0 V c 1 t) (iblk0 V c 2 t) (iblk0 V c 3 t) (iblk0 V c 4 t) (iblk0 V c 5 t) (iblk0 V c 6 t)
    (fun p k => by
      show V c main_arg0 (((cfg0.win 0).blk t).view.emb (ix2 p k)) = V c main_arg0 (ix2 _ k)
      refine congrArg (V c main_arg0) (funext fun a => Fin.ext ?_)
      match a with
      | ⟨0, _⟩ => show win0_0.index t (0 : Fin 2) * 5000 + 1 * p.val = t.val * 5000 + p.val; omega
      | ⟨1, _⟩ => show win0_0.index t (1 : Fin 2) * 128 + 1 * k.val = k.val; omega)
    (fun p k => by
      show V c main_v13 (((cfg0.win 1).blk t).view.emb (ix2 p k)) = V c main_v13 (ix2 _ k)
      refine congrArg (V c main_v13) (funext fun a => Fin.ext ?_)
      match a with
      | ⟨0, _⟩ => show win0_1.index t (0 : Fin 2) * 5000 + 1 * p.val = t.val * 5000 + p.val; omega
      | ⟨1, _⟩ => show win0_1.index t (1 : Fin 2) * 128 + 1 * k.val = k.val; omega)
    (fun p => by
      show V c main_v3 (((cfg0.win 2).blk t).view.emb (ix2 p (0 : Fin 1))) = V c main_v3 (ix2 _ (0 : Fin 1))
      refine congrArg (V c main_v3) (funext fun a => Fin.ext ?_)
      match a with
      | ⟨0, _⟩ => show win0_2.index t (0 : Fin 2) * 5000 + 1 * p.val = t.val * 5000 + p.val; omega
      | ⟨1, _⟩ => show win0_2.index t (1 : Fin 2) * 1 + 1 * 0 = 0; omega)
    (fun k q => by
      show V c main_arg3 (((cfg0.win 3).blk t).view.emb (ix2 k q)) = V c main_arg3 (ix2 k q)
      refine congrArg (V c main_arg3) (funext fun a => Fin.ext ?_)
      match a with
      | ⟨0, _⟩ => show win0_3.index t (0 : Fin 2) * 128 + 1 * k.val = k.val; omega
      | ⟨1, _⟩ => show win0_3.index t (1 : Fin 2) * 128 + 1 * q.val = q.val; omega)
    (fun q => by
      show V c main_arg4 (((cfg0.win 4).blk t).view.emb (ix1 q)) = V c main_arg4 (ix1 q)
      refine congrArg (V c main_arg4) (funext fun a => Fin.ext ?_)
      match a with
      | ⟨0, _⟩ => show win0_4.index t (0 : Fin 1) * 128 + 1 * q.val = q.val; omega)
    (fun k q => by
      show V c main_arg5 (((cfg0.win 5).blk t).view.emb (ix2 k q)) = V c main_arg5 (ix2 k q)
      refine congrArg (V c main_arg5) (funext fun a => Fin.ext ?_)
      match a with
      | ⟨0, _⟩ => show win0_5.index t (0 : Fin 2) * 128 + 1 * k.val = k.val; omega
      | ⟨1, _⟩ => show win0_5.index t (1 : Fin 2) * 128 + 1 * q.val = q.val; omega)
    (fun q => by
      show V c main_arg6 (((cfg0.win 6).blk t).view.emb (ix1 q)) = V c main_arg6 (ix1 q)
      refine congrArg (V c main_arg6) (funext fun a => Fin.ext ?_)
      match a with
      | ⟨0, _⟩ => show win0_6.index t (0 : Fin 1) * 128 + 1 * q.val = q.val; omega)
    p q
  refine key.trans ?_
  show _ = (Net.relu (Net.preact (V c main_arg0) (V c main_v13) (V c main_v3) (V c main_arg3) (V c main_arg4) (V c main_arg5) (V c main_arg6))) (((cfg0.win 7).blk t).view.emb (ix2 p q))
  refine congrArg _ (funext fun a => Fin.ext ?_)
  match a with
  | ⟨0, _⟩ => show t.val * 5000 + p.val = win0_7.index t (0 : Fin 2) * 5000 + 1 * p.val; omega
  | ⟨1, _⟩ => show q.val = win0_7.index t (1 : Fin 2) * 128 + 1 * q.val; omega

/-- An index of the result array is in point t's block iff each coordinate is in the block's range on its axis. -/
theorem mem_blk (t : Fin cfg0.N) (i : S100000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v14).slice (win0_7.rect t)).set ↔ _
  rw [View.set_slice_whole, Rect.mem_set_unit]
  exact Iff.rfl

/-- Every row lies in some point's block: row r in block r / 5000. -/
theorem cover (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 := ⟨⟨(i 0).val / 5000, by show _ < grid0.N; omega⟩, rfl⟩
  obtain ⟨a00, a01, a10, a11, a20, a21, a30, a31, a40, a50, a51, a60, a70, a71, hT⟩ := idx_facts t
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- THE RESULT ARRAY after the region: the reference's layer of the arrays the region finds. -/
theorem final (c : Dev nD) : (dat0 V c).arrAt 7 cfg0.N
    = Net.relu (Net.preact (V c main_arg0) (V c main_v13) (V c main_v3) (V c main_arg3) (V c main_arg4) (V c main_arg5) (V c main_arg6)) :=
  (dat0 V c).arrAt_eq_of_cover 7 _ (fun t _ => flushed_eq V c t) cover

end Cert.KernelIdeal.Layer0

end
-- ==== Proof.Layer1.lean ====
/-
  Layer 2 of the kernel program: what its region leaves in the result array, as one whole-array function of the
  arrays the region finds.

  The region walks 20 blocks of 5000 rows. At block t the body sees rows 5000·t … 5000·t + 4999 of the node features, of
  the summed neighbour features and of the in-degrees, and the whole weights and biases, and writes back rows
  5000·t … 5000·t + 4999 of the result. Row r of the result depends only on row r of the inputs, so each written block
  is the restriction of the reference's layer to those rows; the 20 blocks cover all 100000 rows (row r lies in block
  r / 5000).
-/
import proofs.«103576_j84670985273715_1_alg».proof.Proof.Gen.KernelIdeal.Frame
import proofs.«103576_j84670985273715_1_alg».proof.Proof.KernelEntry
import proofs.«103576_j84670985273715_1_alg».proof.Proof.RefNet

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)
open Cert.ReferenceIdeal (Net.Mat Net.Col Net.W128 Net.B128)

local notation "Net.relu" => Cert.ReferenceIdeal.Net.relu
local notation "Net.preact" => Cert.ReferenceIdeal.Net.preact

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-blocked inputs and the result sit at block row t, the weights and
    biases at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0
    ∧ t.val < 20 :=
  (by decide +kernel : ∀ t : Fin grid1.N, _)

/-- One stored entry of block T is the reference layer's entry at row 5000·T + p, when the loaded blocks are rows
    5000·T … of the arrays and the whole weights. -/
theorem entry_eq (h msg : Net.Mat) (deg : Net.Col) (Ws : Net.W128) (bs : Net.B128) (Wn : Net.W128) (bn : Net.B128)
    (T : Nat) (hT : T < 20)
    (x0 x1 : Vec Ideal S5000x128 .f32) (x2 : Vec Ideal S5000x1 .f32) (x3 : Vec Ideal S128x128 .f32)
    (x4 : Vec Ideal S128 .f32) (x5 : Vec Ideal S128x128 .f32) (x6 : Vec Ideal S128 .f32)
    (e0 : ∀ (p : Fin 5000) (k : Fin 128), x0 (ix2 p k) = h (ix2 (⟨T * 5000 + p.val, by omega⟩ : Fin 100000) k))
    (e1 : ∀ (p : Fin 5000) (k : Fin 128), x1 (ix2 p k) = msg (ix2 (⟨T * 5000 + p.val, by omega⟩ : Fin 100000) k))
    (e2 : ∀ (p : Fin 5000), x2 (ix2 p (0 : Fin 1)) = deg (ix2 (⟨T * 5000 + p.val, by omega⟩ : Fin 100000) (0 : Fin 1)))
    (e3 : ∀ (k : Fin 128) (q : Fin 128), x3 (ix2 k q) = Ws (ix2 k q))
    (e4 : ∀ q : Fin 128, x4 (ix1 q) = bs (ix1 q))
    (e5 : ∀ (k : Fin 128) (q : Fin 128), x5 (ix2 k q) = Wn (ix2 k q))
    (e6 : ∀ q : Fin 128, x6 (ix1 q) = bn (ix1 q))
    (p : Fin 5000) (q : Fin 128) :
    k1_pay1 x0 x1 x2 x3 x4 x5 x6 (ix2 p q)
      = Net.relu (Net.preact h msg deg Ws bs Wn bn) (ix2 (⟨T * 5000 + p.val, by omega⟩ : Fin 100000) q) := by
  rw [Entry.pay1_apply, Cert.ReferenceIdeal.Net.relu_apply, Cert.ReferenceIdeal.Net.preact_apply, Sage.cellK_eq_cellR]
  simp only [e0, e1, e2, e3, e4, e5, e6]

variable (V : (c : Dev nD) → (b : Ref sig .tc) → Buf (Elt Ideal) ((c : Thread nD τ).loc b))

/-- WHAT POINT t WRITES BACK is block t of the reference's layer of the arrays the region finds. -/
theorem flushed_eq (c : Dev nD) (t : Fin cfg1.N) :
    (dat1 V c).flushed 7 t = ((cfg1.win 7).blk t).view.read (Elt Ideal)
      (Net.relu (Net.preact (V c main_v14) (V c main_v24) (V c main_v3) (V c main_arg7) (V c main_arg8) (V c main_arg9) (V c main_arg10))) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S5000x1) hz2,
    View.ld_unit_zero (S := S128x128) hz2, View.ld_unit_zero (S := S128) hz1]
  obtain ⟨a00, a01, a10, a11, a20, a21, a30, a31, a40, a50, a51, a60, a70, a71, hT⟩ := idx_facts t
  funext y
  obtain ⟨p, q, rfl⟩ : ∃ (p : Fin 5000) (q : Fin 128), y = ix2 p q := ⟨y 0, y 1, eq_ix2 y⟩
  have key := entry_eq (V c main_v14) (V c main_v24) (V c main_v3) (V c main_arg7) (V c main_arg8) (V c main_arg9) (V c main_arg10) t.val hT
    (iblk1 V c 0 t) (iblk1 V c 1 t) (iblk1 V c 2 t) (iblk1 V c 3 t) (iblk1 V c 4 t) (iblk1 V c 5 t) (iblk1 V c 6 t)
    (fun p k => by
      show V c main_v14 (((cfg1.win 0).blk t).view.emb (ix2 p k)) = V c main_v14 (ix2 _ k)
      refine congrArg (V c main_v14) (funext fun a => Fin.ext ?_)
      match a with
      | ⟨0, _⟩ => show win1_0.index t (0 : Fin 2) * 5000 + 1 * p.val = t.val * 5000 + p.val; omega
      | ⟨1, _⟩ => show win1_0.index t (1 : Fin 2) * 128 + 1 * k.val = k.val; omega)
    (fun p k => by
      show V c main_v24 (((cfg1.win 1).blk t).view.emb (ix2 p k)) = V c main_v24 (ix2 _ k)
      refine congrArg (V c main_v24) (funext fun a => Fin.ext ?_)
      match a with
      | ⟨0, _⟩ => show win1_1.index t (0 : Fin 2) * 5000 + 1 * p.val = t.val * 5000 + p.val; omega
      | ⟨1, _⟩ => show win1_1.index t (1 : Fin 2) * 128 + 1 * k.val = k.val; omega)
    (fun p => by
      show V c main_v3 (((cfg1.win 2).blk t).view.emb (ix2 p (0 : Fin 1))) = V c main_v3 (ix2 _ (0 : Fin 1))
      refine congrArg (V c main_v3) (funext fun a => Fin.ext ?_)
      match a with
      | ⟨0, _⟩ => show win1_2.index t (0 : Fin 2) * 5000 + 1 * p.val = t.val * 5000 + p.val; omega
      | ⟨1, _⟩ => show win1_2.index t (1 : Fin 2) * 1 + 1 * 0 = 0; omega)
    (fun k q => by
      show V c main_arg7 (((cfg1.win 3).blk t).view.emb (ix2 k q)) = V c main_arg7 (ix2 k q)
      refine congrArg (V c main_arg7) (funext fun a => Fin.ext ?_)
      match a with
      | ⟨0, _⟩ => show win1_3.index t (0 : Fin 2) * 128 + 1 * k.val = k.val; omega
      | ⟨1, _⟩ => show win1_3.index t (1 : Fin 2) * 128 + 1 * q.val = q.val; omega)
    (fun q => by
      show V c main_arg8 (((cfg1.win 4).blk t).view.emb (ix1 q)) = V c main_arg8 (ix1 q)
      refine congrArg (V c main_arg8) (funext fun a => Fin.ext ?_)
      match a with
      | ⟨0, _⟩ => show win1_4.index t (0 : Fin 1) * 128 + 1 * q.val = q.val; omega)
    (fun k q => by
      show V c main_arg9 (((cfg1.win 5).blk t).view.emb (ix2 k q)) = V c main_arg9 (ix2 k q)
      refine congrArg (V c main_arg9) (funext fun a => Fin.ext ?_)
      match a with
      | ⟨0, _⟩ => show win1_5.index t (0 : Fin 2) * 128 + 1 * k.val = k.val; omega
      | ⟨1, _⟩ => show win1_5.index t (1 : Fin 2) * 128 + 1 * q.val = q.val; omega)
    (fun q => by
      show V c main_arg10 (((cfg1.win 6).blk t).view.emb (ix1 q)) = V c main_arg10 (ix1 q)
      refine congrArg (V c main_arg10) (funext fun a => Fin.ext ?_)
      match a with
      | ⟨0, _⟩ => show win1_6.index t (0 : Fin 1) * 128 + 1 * q.val = q.val; omega)
    p q
  refine key.trans ?_
  show _ = (Net.relu (Net.preact (V c main_v14) (V c main_v24) (V c main_v3) (V c main_arg7) (V c main_arg8) (V c main_arg9) (V c main_arg10))) (((cfg1.win 7).blk t).view.emb (ix2 p q))
  refine congrArg _ (funext fun a => Fin.ext ?_)
  match a with
  | ⟨0, _⟩ => show t.val * 5000 + p.val = win1_7.index t (0 : Fin 2) * 5000 + 1 * p.val; omega
  | ⟨1, _⟩ => show q.val = win1_7.index t (1 : Fin 2) * 128 + 1 * q.val; omega

/-- An index of the result array is in point t's block iff each coordinate is in the block's range on its axis. -/
theorem mem_blk (t : Fin cfg1.N) (i : S100000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v25).slice (win1_7.rect t)).set ↔ _
  rw [View.set_slice_whole, Rect.mem_set_unit]
  exact Iff.rfl

/-- Every row lies in some point's block: row r in block r / 5000. -/
theorem cover (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : grid1.N = 20 := N_1
  obtain ⟨t, ht⟩ : ∃ t : Fin cfg1.N, t.val = (i 0).val / 5000 := ⟨⟨(i 0).val / 5000, by show _ < grid1.N; omega⟩, rfl⟩
  obtain ⟨a00, a01, a10, a11, a20, a21, a30, a31, a40, a50, a51, a60, a70, a71, hT⟩ := idx_facts t
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- THE RESULT ARRAY after the region: the reference's layer of the arrays the region finds. -/
theorem final (c : Dev nD) : (dat1 V c).arrAt 7 cfg1.N
    = Net.relu (Net.preact (V c main_v14) (V c main_v24) (V c main_v3) (V c main_arg7) (V c main_arg8) (V c main_arg9) (V c main_arg10)) :=
  (dat1 V c).arrAt_eq_of_cover 7 _ (fun t _ => flushed_eq V c t) cover

end Cert.KernelIdeal.Layer1

end
-- ==== Proof.Layer2.lean ====
/-
  Layer 3 of the kernel program: what its region leaves in the result array, as one whole-array function of the
  arrays the region finds.

  The region walks 20 blocks of 5000 rows. At block t the body sees rows 5000·t … 5000·t + 4999 of the node features, of
  the summed neighbour features and of the in-degrees, and the whole weights and biases, and writes back rows
  5000·t … 5000·t + 4999 of the result. Row r of the result depends only on row r of the inputs, so each written block
  is the restriction of the reference's layer to those rows; the 20 blocks cover all 100000 rows (row r lies in block
  r / 5000).
-/
import proofs.«103576_j84670985273715_1_alg».proof.Proof.Gen.KernelIdeal.Frame
import proofs.«103576_j84670985273715_1_alg».proof.Proof.KernelEntry
import proofs.«103576_j84670985273715_1_alg».proof.Proof.RefNet

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)
open Cert.ReferenceIdeal (Net.Mat Net.Col Net.W128 Net.B128)

local notation "Net.relu" => Cert.ReferenceIdeal.Net.relu
local notation "Net.preact" => Cert.ReferenceIdeal.Net.preact

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-blocked inputs and the result sit at block row t, the weights and
    biases at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0
    ∧ t.val < 20 :=
  (by decide +kernel : ∀ t : Fin grid2.N, _)

/-- One stored entry of block T is the reference layer's entry at row 5000·T + p, when the loaded blocks are rows
    5000·T … of the arrays and the whole weights. -/
theorem entry_eq (h msg : Net.Mat) (deg : Net.Col) (Ws : Net.W128) (bs : Net.B128) (Wn : Net.W128) (bn : Net.B128)
    (T : Nat) (hT : T < 20)
    (x0 x1 : Vec Ideal S5000x128 .f32) (x2 : Vec Ideal S5000x1 .f32) (x3 : Vec Ideal S128x128 .f32)
    (x4 : Vec Ideal S128 .f32) (x5 : Vec Ideal S128x128 .f32) (x6 : Vec Ideal S128 .f32)
    (e0 : ∀ (p : Fin 5000) (k : Fin 128), x0 (ix2 p k) = h (ix2 (⟨T * 5000 + p.val, by omega⟩ : Fin 100000) k))
    (e1 : ∀ (p : Fin 5000) (k : Fin 128), x1 (ix2 p k) = msg (ix2 (⟨T * 5000 + p.val, by omega⟩ : Fin 100000) k))
    (e2 : ∀ (p : Fin 5000), x2 (ix2 p (0 : Fin 1)) = deg (ix2 (⟨T * 5000 + p.val, by omega⟩ : Fin 100000) (0 : Fin 1)))
    (e3 : ∀ (k : Fin 128) (q : Fin 128), x3 (ix2 k q) = Ws (ix2 k q))
    (e4 : ∀ q : Fin 128, x4 (ix1 q) = bs (ix1 q))
    (e5 : ∀ (k : Fin 128) (q : Fin 128), x5 (ix2 k q) = Wn (ix2 k q))
    (e6 : ∀ q : Fin 128, x6 (ix1 q) = bn (ix1 q))
    (p : Fin 5000) (q : Fin 128) :
    k2_pay1 x0 x1 x2 x3 x4 x5 x6 (ix2 p q)
      = Net.preact h msg deg Ws bs Wn bn (ix2 (⟨T * 5000 + p.val, by omega⟩ : Fin 100000) q) := by
  rw [Entry.pay2_apply, Cert.ReferenceIdeal.Net.preact_apply, Sage.cellK_eq_cellR]
  simp only [e0, e1, e2, e3, e4, e5, e6]

variable (V : (c : Dev nD) → (b : Ref sig .tc) → Buf (Elt Ideal) ((c : Thread nD τ).loc b))

/-- WHAT POINT t WRITES BACK is block t of the reference's layer of the arrays the region finds. -/
theorem flushed_eq (c : Dev nD) (t : Fin cfg2.N) :
    (dat2 V c).flushed 7 t = ((cfg2.win 7).blk t).view.read (Elt Ideal)
      ((Net.preact (V c main_v25) (V c main_v35) (V c main_v3) (V c main_arg11) (V c main_arg12) (V c main_arg13) (V c main_arg14))) := by
  show (cfg2.win 7).cut (grid2.coords t) ((dat2 V c).after 7 t) = _
  rw [after2_7]
  unfold out2_7
  rw [View.canon_unit_zero hz2]
  simp only [View.ld_unit_zero (S := S5000x128) hz2, View.ld_unit_zero (S := S5000x1) hz2,
    View.ld_unit_zero (S := S128x128) hz2, View.ld_unit_zero (S := S128) hz1]
  obtain ⟨a00, a01, a10, a11, a20, a21, a30, a31, a40, a50, a51, a60, a70, a71, hT⟩ := idx_facts t
  funext y
  obtain ⟨p, q, rfl⟩ : ∃ (p : Fin 5000) (q : Fin 128), y = ix2 p q := ⟨y 0, y 1, eq_ix2 y⟩
  have key := entry_eq (V c main_v25) (V c main_v35) (V c main_v3) (V c main_arg11) (V c main_arg12) (V c main_arg13) (V c main_arg14) t.val hT
    (iblk2 V c 0 t) (iblk2 V c 1 t) (iblk2 V c 2 t) (iblk2 V c 3 t) (iblk2 V c 4 t) (iblk2 V c 5 t) (iblk2 V c 6 t)
    (fun p k => by
      show V c main_v25 (((cfg2.win 0).blk t).view.emb (ix2 p k)) = V c main_v25 (ix2 _ k)
      refine congrArg (V c main_v25) (funext fun a => Fin.ext ?_)
      match a with
      | ⟨0, _⟩ => show win2_0.index t (0 : Fin 2) * 5000 + 1 * p.val = t.val * 5000 + p.val; omega
      | ⟨1, _⟩ => show win2_0.index t (1 : Fin 2) * 128 + 1 * k.val = k.val; omega)
    (fun p k => by
      show V c main_v35 (((cfg2.win 1).blk t).view.emb (ix2 p k)) = V c main_v35 (ix2 _ k)
      refine congrArg (V c main_v35) (funext fun a => Fin.ext ?_)
      match a with
      | ⟨0, _⟩ => show win2_1.index t (0 : Fin 2) * 5000 + 1 * p.val = t.val * 5000 + p.val; omega
      | ⟨1, _⟩ => show win2_1.index t (1 : Fin 2) * 128 + 1 * k.val = k.val; omega)
    (fun p => by
      show V c main_v3 (((cfg2.win 2).blk t).view.emb (ix2 p (0 : Fin 1))) = V c main_v3 (ix2 _ (0 : Fin 1))
      refine congrArg (V c main_v3) (funext fun a => Fin.ext ?_)
      match a with
      | ⟨0, _⟩ => show win2_2.index t (0 : Fin 2) * 5000 + 1 * p.val = t.val * 5000 + p.val; omega
      | ⟨1, _⟩ => show win2_2.index t (1 : Fin 2) * 1 + 1 * 0 = 0; omega)
    (fun k q => by
      show V c main_arg11 (((cfg2.win 3).blk t).view.emb (ix2 k q)) = V c main_arg11 (ix2 k q)
      refine congrArg (V c main_arg11) (funext fun a => Fin.ext ?_)
      match a with
      | ⟨0, _⟩ => show win2_3.index t (0 : Fin 2) * 128 + 1 * k.val = k.val; omega
      | ⟨1, _⟩ => show win2_3.index t (1 : Fin 2) * 128 + 1 * q.val = q.val; omega)
    (fun q => by
      show V c main_arg12 (((cfg2.win 4).blk t).view.emb (ix1 q)) = V c main_arg12 (ix1 q)
      refine congrArg (V c main_arg12) (funext fun a => Fin.ext ?_)
      match a with
      | ⟨0, _⟩ => show win2_4.index t (0 : Fin 1) * 128 + 1 * q.val = q.val; omega)
    (fun k q => by
      show V c main_arg13 (((cfg2.win 5).blk t).view.emb (ix2 k q)) = V c main_arg13 (ix2 k q)
      refine congrArg (V c main_arg13) (funext fun a => Fin.ext ?_)
      match a with
      | ⟨0, _⟩ => show win2_5.index t (0 : Fin 2) * 128 + 1 * k.val = k.val; omega
      | ⟨1, _⟩ => show win2_5.index t (1 : Fin 2) * 128 + 1 * q.val = q.val; omega)
    (fun q => by
      show V c main_arg14 (((cfg2.win 6).blk t).view.emb (ix1 q)) = V c main_arg14 (ix1 q)
      refine congrArg (V c main_arg14) (funext fun a => Fin.ext ?_)
      match a with
      | ⟨0, _⟩ => show win2_6.index t (0 : Fin 1) * 128 + 1 * q.val = q.val; omega)
    p q
  refine key.trans ?_
  show _ = ((Net.preact (V c main_v25) (V c main_v35) (V c main_v3) (V c main_arg11) (V c main_arg12) (V c main_arg13) (V c main_arg14))) (((cfg2.win 7).blk t).view.emb (ix2 p q))
  refine congrArg _ (funext fun a => Fin.ext ?_)
  match a with
  | ⟨0, _⟩ => show t.val * 5000 + p.val = win2_7.index t (0 : Fin 2) * 5000 + 1 * p.val; omega
  | ⟨1, _⟩ => show q.val = win2_7.index t (1 : Fin 2) * 128 + 1 * q.val; omega

/-- An index of the result array is in point t's block iff each coordinate is in the block's range on its axis. -/
theorem mem_blk (t : Fin cfg2.N) (i : S100000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v36).slice (win2_7.rect t)).set ↔ _
  rw [View.set_slice_whole, Rect.mem_set_unit]
  exact Iff.rfl

/-- Every row lies in some point's block: row r in block r / 5000. -/
theorem cover (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  have hN : grid2.N = 20 := N_2
  obtain ⟨t, ht⟩ : ∃ t : Fin cfg2.N, t.val = (i 0).val / 5000 := ⟨⟨(i 0).val / 5000, by show _ < grid2.N; omega⟩, rfl⟩
  obtain ⟨a00, a01, a10, a11, a20, a21, a30, a31, a40, a50, a51, a60, a70, a71, hT⟩ := idx_facts t
  refine ⟨t, flush2_7 t, ?_⟩
  rw [mem_blk]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega

/-- THE RESULT ARRAY after the region: the reference's layer of the arrays the region finds. -/
theorem final (c : Dev nD) : (dat2 V c).arrAt 7 cfg2.N
    = (Net.preact (V c main_v25) (V c main_v35) (V c main_v3) (V c main_arg11) (V c main_arg12) (V c main_arg13) (V c main_arg14)) :=
  (dat2 V c).arrAt_eq_of_cover 7 _ (fun t _ => flushed_eq V c t) cover

end Cert.KernelIdeal.Layer2

end
-- ==== Proof.Layer3.lean ====
/-
  The closing linear map of the kernel program: what its region leaves in the result array.

  The region walks 20 blocks of 5000 rows of the last layer's features; at block t the body writes back rows
  5000·t … 5000·t + 4999 of the result, row r of which is row r of the features times the weights plus the bias. The
  20 blocks cover all 100000 rows.
-/
import proofs.«103576_j84670985273715_1_alg».proof.Proof.Gen.KernelIdeal.Frame
import proofs.«103576_j84670985273715_1_alg».proof.Proof.KernelEntry
import proofs.«103576_j84670985273715_1_alg».proof.Proof.RefNet

set_option maxRecDepth 16384

noncomputable section

namespace Cert.KernelIdeal.Layer3

open Cert.KernelIdeal Cert.KernelIdeal.Gen Idealize.ShloMosaic Idealize.ShloMosaic.TcCoe Idealize.SL.Sem
open Idealize.ShloMosaic.ValueIdx
open Idealize.ShloMosaic.Pipeline (Dat)

local notation "Net.out" => Cert.ReferenceIdeal.Net.out

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the features and the result sit at block row t, the weights and the bias at
    their one block. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0
    ∧ t.val < 20 :=
  (by decide +kernel : ∀ t : Fin grid3.N, _)

/-- One stored entry of block T is the reference's entry at row 5000·T + p. -/
theorem entry_eq (h : Cert.ReferenceIdeal.Net.Mat) (Wo : Cert.ReferenceIdeal.Net.W64) (bo : Cert.ReferenceIdeal.Net.B64)
    (T : Nat) (hT : T < 20)
    (x0 : Vec Ideal S5000x128 .f32) (x1 : Vec Ideal S128x64 .f32) (x2 : Vec Ideal S64 .f32)
    (e0 : ∀ (p : Fin 5000) (k : Fin 128), x0 (ix2 p k) = h (ix2 (⟨T * 5000 + p.val, by omega⟩ : Fin 100000) k))
    (e1 : ∀ (k : Fin 128) (q : Fin 64), x1 (ix2 k q) = Wo (ix2 k q))
    (e2 : ∀ q : Fin 64, x2 (ix1 q) = bo (ix1 q))
    (p : Fin 5000) (q : Fin 64) :
    k3_pay1 x0 x1 x2 (ix2 p q) = Net.out h Wo bo (ix2 (⟨T * 5000 + p.val, by omega⟩ : Fin 100000) q) := by
  rw [Entry.pay3_apply, Cert.ReferenceIdeal.Net.out_apply]
  simp only [e0, e1, e2]

variable (V : (c : Dev nD) → (b : Ref sig .tc) → Buf (Elt Ideal) ((c : Thread nD τ).loc b))

/-- WHAT POINT t WRITES BACK is block t of the reference's linear map of the arrays the region finds. -/
theorem flushed_eq (c : Dev nD) (t : Fin cfg3.N) :
    (dat3 V c).flushed 3 t = ((cfg3.win 3).blk t).view.read (Elt Ideal)
      (Net.out (V c main_v36) (V c main_arg15) (V c main_arg16)) := by
  show (cfg3.win 3).cut (grid3.coords t) ((dat3 V c).after 3 t) = _
  rw [after3_3]
  unfold out3_3
  rw [View.canon_unit_zero hz2]
  simp only [View.ld_unit_zero (S := S5000x128) hz2, View.ld_unit_zero (S := S128x64) hz2, View.ld_unit_zero (S := S64) hz1]
  obtain ⟨a00, a01, a10, a11, a20, a30, a31, hT⟩ := idx_facts t
  funext y
  obtain ⟨p, q, rfl⟩ : ∃ (p : Fin 5000) (q : Fin 64), y = ix2 p q := ⟨y 0, y 1, eq_ix2 y⟩
  have key := entry_eq (V c main_v36) (V c main_arg15) (V c main_arg16) t.val hT
    (iblk3 V c 0 t) (iblk3 V c 1 t) (iblk3 V c 2 t)
    (fun p k => by
      show V c main_v36 (((cfg3.win 0).blk t).view.emb (ix2 p k)) = V c main_v36 (ix2 _ k)
      refine congrArg (V c main_v36) (funext fun a => Fin.ext ?_)
      match a with
      | ⟨0, _⟩ => show win3_0.index t (0 : Fin 2) * 5000 + 1 * p.val = t.val * 5000 + p.val; omega
      | ⟨1, _⟩ => show win3_0.index t (1 : Fin 2) * 128 + 1 * k.val = k.val; omega)
    (fun k q => by
      show V c main_arg15 (((cfg3.win 1).blk t).view.emb (ix2 k q)) = V c main_arg15 (ix2 k q)
      refine congrArg (V c main_arg15) (funext fun a => Fin.ext ?_)
      match a with
      | ⟨0, _⟩ => show win3_1.index t (0 : Fin 2) * 128 + 1 * k.val = k.val; omega
      | ⟨1, _⟩ => show win3_1.index t (1 : Fin 2) * 64 + 1 * q.val = q.val; omega)
    (fun q => by
      show V c main_arg16 (((cfg3.win 2).blk t).view.emb (ix1 q)) = V c main_arg16 (ix1 q)
      refine congrArg (V c main_arg16) (funext fun a => Fin.ext ?_)
      match a with
      | ⟨0, _⟩ => show win3_2.index t (0 : Fin 1) * 64 + 1 * q.val = q.val; omega)
    p q
  refine key.trans ?_
  show _ = (Net.out (V c main_v36) (V c main_arg15) (V c main_arg16)) (((cfg3.win 3).blk t).view.emb (ix2 p q))
  refine congrArg _ (funext fun a => Fin.ext ?_)
  match a with
  | ⟨0, _⟩ => show t.val * 5000 + p.val = win3_3.index t (0 : Fin 2) * 5000 + 1 * p.val; omega
  | ⟨1, _⟩ => show q.val = win3_3.index t (1 : Fin 2) * 64 + 1 * q.val; omega

/-- An index of the result array is in point t's block iff each coordinate is in the block's range on its axis. -/
theorem mem_blk (t : Fin cfg3.N) (i : S100000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v37).slice (win3_3.rect t)).set ↔ _
  rw [View.set_slice_whole, Rect.mem_set_unit]
  exact Iff.rfl

/-- Every row lies in some point's block: row r in block r / 5000. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : grid3.N = 20 := N_3
  obtain ⟨t, ht⟩ : ∃ t : Fin cfg3.N, t.val = (i 0).val / 5000 := ⟨⟨(i 0).val / 5000, by show _ < grid3.N; omega⟩, rfl⟩
  obtain ⟨a00, a01, a10, a11, a20, a30, a31, hT⟩ := idx_facts t
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- THE RESULT ARRAY after the region: the reference's linear map of the arrays the region finds. -/
theorem final (c : Dev nD) : (dat3 V c).arrAt 3 cfg3.N
    = Net.out (V c main_v36) (V c main_arg15) (V c main_arg16) :=
  (dat3 V c).arrAt_eq_of_cover 3 _ (fun t _ => flushed_eq V c t) cover

end Cert.KernelIdeal.Layer3

end
-- ==== Proof.Chain.lean ====
/-
  The kernel program's result buffer, followed back through the program.

  The program is: a stretch of host operations (the in-degrees, and the first sum over neighbours), layer 1's region,
  a stretch (the sum over neighbours of layer 1's features), layer 2's region, a stretch (the same of layer 2's
  features), layer 3's region, and the closing linear map's region. The buffer contents after each piece are a fold
  from the launch memory. Read at the buffers each region takes, that fold gives: the arguments as launched (nothing
  writes them), the in-degrees computed once and never overwritten, and each layer's features as the reference's layer
  of the previous ones. So the result buffer ends at the reference network of the launch arguments.
-/
import proofs.«103576_j84670985273715_1_alg».proof.Proof.Layer0
import proofs.«103576_j84670985273715_1_alg».proof.Proof.Layer1
import proofs.«103576_j84670985273715_1_alg».proof.Proof.Layer2
import proofs.«103576_j84670985273715_1_alg».proof.Proof.Layer3

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

local notation "Net.relu" => Cert.ReferenceIdeal.Net.relu
local notation "Net.preact" => Cert.ReferenceIdeal.Net.preact
local notation "Net.out" => Cert.ReferenceIdeal.Net.out
local notation "Net.degree" => Cert.ReferenceIdeal.Net.degree
local notation "Net.neighbourSum" => Cert.ReferenceIdeal.Net.neighbourSum
local notation "Net.net" => Cert.ReferenceIdeal.Net.net

variable (m : (ℓ : Loc nD τ sig) → Buf (Elt Ideal) ℓ) (ρ : Dev nD → PrngReg) (c : Dev nD)

/-! ## What the three host stretches write -/

abbrev wr0 : List (Ref sig .tc) := [main_cst, main_v0, main_cst_0, main_v1, main_v2, main_v3, main_c, main_v4, main_v5, main_c_1,
  main_v6, main_v7, main_v8, main_v9, main_v10, main_cst_2, main_v11, main_v12, main_v13]
abbrev wr1 : List (Ref sig .tc) := [main_c_3, main_v15, main_v16, main_c_4, main_v17, main_v18, main_v19, main_v20, main_v21,
  main_cst_5, main_v22, main_v23, main_v24]
abbrev wr2 : List (Ref sig .tc) := [main_c_6, main_v26, main_v27, main_c_7, main_v28, main_v29, main_v30, main_v31, main_v32,
  main_cst_8, main_v33, main_v34, main_v35]

theorem wr0_sub : (hostOps0 : List (HloOp τ sig (Elt Ideal))).Forall fun op => op.writes ⊆ (wr0.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)
theorem wr1_sub : (hostOps1 : List (HloOp τ sig (Elt Ideal))).Forall fun op => op.writes ⊆ (wr1.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)
theorem wr2_sub : (hostOps2 : List (HloOp τ sig (Elt Ideal))).Forall fun op => op.writes ⊆ (wr2.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)

/-- A buffer a stretch does not write keeps its contents across it. -/
theorem W1_of (b : Ref sig .tc) (h : b ∉ wr0) : W1 m ρ c (Proc.devRef .tc b) = W0 m ρ c (Proc.devRef .tc b) :=
  after_of_writes_sub hostOps0 _ wr0_sub h
theorem W3_of (b : Ref sig .tc) (h : b ∉ wr1) : W3 m ρ c (Proc.devRef .tc b) = W2 m ρ c (Proc.devRef .tc b) :=
  after_of_writes_sub hostOps1 _ wr1_sub h
theorem W5_of (b : Ref sig .tc) (h : b ∉ wr2) : W5 m ρ c (Proc.devRef .tc b) = W4 m ρ c (Proc.devRef .tc b) :=
  after_of_writes_sub hostOps2 _ wr2_sub h

/-! ## A buffer nothing writes holds its launch contents at every boundary -/

theorem kept1 (b : Ref sig .tc) (h0 : b ∉ wr0) : W1 m ρ c (Proc.devRef .tc b) = m ((c : Thread nD τ).loc b) :=
  (W1_of m ρ c b h0).trans rfl
theorem kept2 (b : Ref sig .tc) (h0 : b ∉ wr0) (n0 : ∀ w, Pipeline.arrRef spec0 w ≠ b) :
    W2 m ρ c (Proc.devRef .tc b) = m ((c : Thread nD τ).loc b) :=
  (W2_of_ne m ρ c b n0).trans (kept1 m ρ c b h0)
theorem kept3 (b : Ref sig .tc) (h0 : b ∉ wr0) (n0 : ∀ w, Pipeline.arrRef spec0 w ≠ b) (h1 : b ∉ wr1) :
    W3 m ρ c (Proc.devRef .tc b) = m ((c : Thread nD τ).loc b) :=
  (W3_of m ρ c b h1).trans (kept2 m ρ c b h0 n0)
theorem kept4 (b : Ref sig .tc) (h0 : b ∉ wr0) (n0 : ∀ w, Pipeline.arrRef spec0 w ≠ b) (h1 : b ∉ wr1)
    (n1 : ∀ w, Pipeline.arrRef spec1 w ≠ b) : W4 m ρ c (Proc.devRef .tc b) = m ((c : Thread nD τ).loc b) :=
  (W4_of_ne m ρ c b n1).trans (kept3 m ρ c b h0 n0 h1)
theorem kept5 (b : Ref sig .tc) (h0 : b ∉ wr0) (n0 : ∀ w, Pipeline.arrRef spec0 w ≠ b) (h1 : b ∉ wr1)
    (n1 : ∀ w, Pipeline.arrRef spec1 w ≠ b) (h2 : b ∉ wr2) : W5 m ρ c (Proc.devRef .tc b) = m ((c : Thread nD τ).loc b) :=
  (W5_of m ρ c b h2).trans (kept4 m ρ c b h0 n0 h1 n1)
theorem kept6 (b : Ref sig .tc) (h0 : b ∉ wr0) (n0 : ∀ w, Pipeline.arrRef spec0 w ≠ b) (h1 : b ∉ wr1)
    (n1 : ∀ w, Pipeline.arrRef spec1 w ≠ b) (h2 : b ∉ wr2) (n2 : ∀ w, Pipeline.arrRef spec2 w ≠ b) :
    W6 m ρ c (Proc.devRef .tc b) = m ((c : Thread nD τ).loc b) :=
  (W6_of_ne m ρ c b n2).trans (kept5 m ρ c b h0 n0 h1 n1 h2)

/-! ## The layers' features -/

/-- Layer 1's features, layer 2's and layer 3's, of the launch arguments. -/
def H1 : Cert.ReferenceIdeal.Net.Mat :=
  Net.relu (Net.preact (m ((c : Thread nD τ).loc main_arg0)) (Net.neighbourSum (m ((c : Thread nD τ).loc main_arg0)) (m ((c : Thread nD τ).loc main_arg1)) (m ((c : Thread nD τ).loc main_arg2))) (Net.degree (m ((c : Thread nD τ).loc main_arg2))) (m ((c : Thread nD τ).loc main_arg3)) (m ((c : Thread nD τ).loc main_arg4)) (m ((c : Thread nD τ).loc main_arg5)) (m ((c : Thread nD τ).loc main_arg6)))
def H2 : Cert.ReferenceIdeal.Net.Mat :=
  Net.relu (Net.preact (H1 m c) (Net.neighbourSum (H1 m c) (m ((c : Thread nD τ).loc main_arg1)) (m ((c : Thread nD τ).loc main_arg2))) (Net.degree (m ((c : Thread nD τ).loc main_arg2))) (m ((c : Thread nD τ).loc main_arg7)) (m ((c : Thread nD τ).loc main_arg8)) (m ((c : Thread nD τ).loc main_arg9)) (m ((c : Thread nD τ).loc main_arg10)))
def H3 : Cert.ReferenceIdeal.Net.Mat :=
  Net.preact (H2 m c) (Net.neighbourSum (H2 m c) (m ((c : Thread nD τ).loc main_arg1)) (m ((c : Thread nD τ).loc main_arg2))) (Net.degree (m ((c : Thread nD τ).loc main_arg2))) (m ((c : Thread nD τ).loc main_arg11)) (m ((c : Thread nD τ).loc main_arg12)) (m ((c : Thread nD τ).loc main_arg13)) (m ((c : Thread nD τ).loc main_arg14))

/-! ## Layer 1 -/

theorem W1_v13 : W1 m ρ c (Proc.devRef .tc main_v13) = Net.neighbourSum (m ((c : Thread nD τ).loc main_arg0)) (m ((c : Thread nD τ).loc main_arg1)) (m ((c : Thread nD τ).loc main_arg2)) := by
  show after hostOps0 (W0 m ρ c) (Proc.devRef .tc main_v13) = _
  after_results
  rfl
theorem W1_v3 : W1 m ρ c (Proc.devRef .tc main_v3) = Net.degree (m ((c : Thread nD τ).loc main_arg2)) := by
  show after hostOps0 (W0 m ρ c) (Proc.devRef .tc main_v3) = _
  after_results
  rfl

theorem W2_v14 : W2 m ρ c (Proc.devRef .tc main_v14) = H1 m c :=
  ((W2_arr m ρ c 7).trans (Layer0.final (V1 m ρ) c)).trans (by
    show Net.relu (Net.preact (W1 m ρ c (Proc.devRef .tc main_arg0)) (W1 m ρ c (Proc.devRef .tc main_v13)) (W1 m ρ c (Proc.devRef .tc main_v3))
      (W1 m ρ c (Proc.devRef .tc main_arg3)) (W1 m ρ c (Proc.devRef .tc main_arg4)) (W1 m ρ c (Proc.devRef .tc main_arg5))
      (W1 m ρ c (Proc.devRef .tc main_arg6))) = _
    rw [kept1 m ρ c main_arg0 (by decide), W1_v13, W1_v3, kept1 m ρ c main_arg3 (by decide), kept1 m ρ c main_arg4 (by decide),
      kept1 m ρ c main_arg5 (by decide), kept1 m ρ c main_arg6 (by decide)]
    rfl)
/-- The in-degrees are an input of layer 1's region: it leaves them as it found them. -/
theorem W2_v3 : W2 m ρ c (Proc.devRef .tc main_v3) = Net.degree (m ((c : Thread nD τ).loc main_arg2)) :=
  (W2_arr m ρ c 2).trans (((dat0 (V1 m ρ) c).arrAt_in 2 rfl _).trans ((A_eq0 (V1 m ρ) c 2).trans (W1_v3 m ρ c)))

/-! ## Layer 2 -/

theorem W3_v14 : W3 m ρ c (Proc.devRef .tc main_v14) = H1 m c := (W3_of m ρ c main_v14 (by decide)).trans (W2_v14 m ρ c)
theorem W3_v3 : W3 m ρ c (Proc.devRef .tc main_v3) = Net.degree (m ((c : Thread nD τ).loc main_arg2)) := (W3_of m ρ c main_v3 (by decide)).trans (W2_v3 m ρ c)
theorem W3_v24 : W3 m ρ c (Proc.devRef .tc main_v24) = Net.neighbourSum (H1 m c) (m ((c : Thread nD τ).loc main_arg1)) (m ((c : Thread nD τ).loc main_arg2)) := by
  show after hostOps1 (W2 m ρ c) (Proc.devRef .tc main_v24) = _
  after_results
  rw [W2_v14, kept2 m ρ c main_arg1 (by decide) (by decide), kept2 m ρ c main_arg2 (by decide) (by decide)]
  rfl

theorem W4_v25 : W4 m ρ c (Proc.devRef .tc main_v25) = H2 m c :=
  ((W4_arr m ρ c 7).trans (Layer1.final (V3 m ρ) c)).trans (by
    show Net.relu (Net.preact (W3 m ρ c (Proc.devRef .tc main_v14)) (W3 m ρ c (Proc.devRef .tc main_v24)) (W3 m ρ c (Proc.devRef .tc main_v3))
      (W3 m ρ c (Proc.devRef .tc main_arg7)) (W3 m ρ c (Proc.devRef .tc main_arg8)) (W3 m ρ c (Proc.devRef .tc main_arg9))
      (W3 m ρ c (Proc.devRef .tc main_arg10))) = _
    rw [W3_v14, W3_v24, W3_v3, kept3 m ρ c main_arg7 (by decide) (by decide) (by decide), kept3 m ρ c main_arg8 (by decide) (by decide) (by decide),
      kept3 m ρ c main_arg9 (by decide) (by decide) (by decide), kept3 m ρ c main_arg10 (by decide) (by decide) (by decide)]
    rfl)
theorem W4_v3 : W4 m ρ c (Proc.devRef .tc main_v3) = Net.degree (m ((c : Thread nD τ).loc main_arg2)) :=
  (W4_arr m ρ c 2).trans (((dat1 (V3 m ρ) c).arrAt_in 2 rfl _).trans ((A_eq1 (V3 m ρ) c 2).trans (W3_v3 m ρ c)))

/-! ## Layer 3 -/

theorem W5_v25 : W5 m ρ c (Proc.devRef .tc main_v25) = H2 m c := (W5_of m ρ c main_v25 (by decide)).trans (W4_v25 m ρ c)
theorem W5_v3 : W5 m ρ c (Proc.devRef .tc main_v3) = Net.degree (m ((c : Thread nD τ).loc main_arg2)) := (W5_of m ρ c main_v3 (by decide)).trans (W4_v3 m ρ c)
theorem W5_v35 : W5 m ρ c (Proc.devRef .tc main_v35) = Net.neighbourSum (H2 m c) (m ((c : Thread nD τ).loc main_arg1)) (m ((c : Thread nD τ).loc main_arg2)) := by
  show after hostOps2 (W4 m ρ c) (Proc.devRef .tc main_v35) = _
  after_results
  rw [W4_v25, kept4 m ρ c main_arg1 (by decide) (by decide) (by decide) (by decide), kept4 m ρ c main_arg2 (by decide) (by decide) (by decide) (by decide)]
  rfl

theorem W6_v36 : W6 m ρ c (Proc.devRef .tc main_v36) = H3 m c :=
  ((W6_arr m ρ c 7).trans (Layer2.final (V5 m ρ) c)).trans (by
    show Net.preact (W5 m ρ c (Proc.devRef .tc main_v25)) (W5 m ρ c (Proc.devRef .tc main_v35)) (W5 m ρ c (Proc.devRef .tc main_v3))
      (W5 m ρ c (Proc.devRef .tc main_arg11)) (W5 m ρ c (Proc.devRef .tc main_arg12)) (W5 m ρ c (Proc.devRef .tc main_arg13))
      (W5 m ρ c (Proc.devRef .tc main_arg14)) = _
    rw [W5_v25, W5_v35, W5_v3, kept5 m ρ c main_arg11 (by decide) (by decide) (by decide) (by decide) (by decide),
      kept5 m ρ c main_arg12 (by decide) (by decide) (by decide) (by decide) (by decide),
      kept5 m ρ c main_arg13 (by decide) (by decide) (by decide) (by decide) (by decide),
      kept5 m ρ c main_arg14 (by decide) (by decide) (by decide) (by decide) (by decide)]
    rfl)

/-! ## The closing linear map, and the whole network -/

/-- THE RESULT BUFFER at the program's end: the reference network of the launch arguments. -/
theorem W7_v37 : W7 m ρ c (Proc.devRef .tc main_v37)
    = Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  ((W7_arr m ρ c 3).trans (Layer3.final (V6 m ρ) c)).trans (by
    show Net.out (W6 m ρ c (Proc.devRef .tc main_v36)) (W6 m ρ c (Proc.devRef .tc main_arg15)) (W6 m ρ c (Proc.devRef .tc main_arg16)) = _
    rw [W6_v36, kept6 m ρ c main_arg15 (by decide) (by decide) (by decide) (by decide) (by decide) (by decide),
      kept6 m ρ c main_arg16 (by decide) (by decide) (by decide) (by decide) (by decide) (by decide)]
    rfl)

end Cert.KernelIdeal.Chain

end
-- ==== Proof.lean ====
/-
  The certificate of a three-layer mean-aggregating graph convolution with a closing linear map, over 100000 nodes
  with 128 features and 600000 edges.

  Each layer takes the node features h, sums the rows h[src e] over the edges e ending at each node, divides by the
  node's in-degree (at least one), and returns (h · W_self + b_self) + (mean · W_neigh + b_neigh), clamped below at
  zero in the first two layers. The reference does all of it on whole arrays. The kernel program computes the
  in-degrees once, leaves each sum over the neighbours to the same gather and scatter the reference uses, and does
  the dense part of each layer, and the closing linear map, block of 5000 rows by block of 5000 rows on the grid.

  At the exact extended-real values the two programs compute one function of the arguments:
    * a row of the result depends only on the same row of the inputs, so the blocks are restrictions of the whole-array
      layer, and they cover every row;
    * a product accumulated into zero is the plain product;
    * the kernel adds the four terms of an entry from the left, the reference adds the two halves: addition of
      extended reals is associative, at the infinities too, so finiteness of the inputs is never used;
    * the gather and the scatter are the same operations applied to the same arrays on both sides and are never opened.
  No rewrite was applied in idealizing the kernel, so there is nothing to preserve.
-/
import proofs.«103576_j84670985273715_1_alg».proof.Defs
import proofs.«103576_j84670985273715_1_alg».proof.Proof.Gen.Kernel
import proofs.«103576_j84670985273715_1_alg».proof.Proof.Gen.Kernel.Frame
import proofs.«103576_j84670985273715_1_alg».proof.Proof.Gen.KernelIdeal
import proofs.«103576_j84670985273715_1_alg».proof.Proof.Gen.KernelIdeal.Frame
import proofs.«103576_j84670985273715_1_alg».proof.Proof.Gen.ReferenceIdeal
import proofs.«103576_j84670985273715_1_alg».proof.Proof.Gen.ReferenceIdeal.Run
import proofs.«103576_j84670985273715_1_alg».proof.Proof.Gen.Pre_finite_inputs
import proofs.«103576_j84670985273715_1_alg».proof.Proof.RefNet
import proofs.«103576_j84670985273715_1_alg».proof.Proof.RunValue
import proofs.«103576_j84670985273715_1_alg».proof.Proof.Chain
import Idealize.ShloMosaic.Adequacy
import Idealize.ShloMosaic.Init

noncomputable section

namespace Cert.Proof

open Idealize.ShloMosaic Idealize.SL.Sem

/-- The three programs run and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the exact values: no rewrite to account for. -/
theorem preserves : Cert.preserves_Kernel_KernelIdeal := trivial

/-- Both programs end with their result at the reference network of the (agreeing) arguments. -/
theorem algebraic : Cert.algebraic_KernelIdeal_ReferenceIdeal := by
  intro m ρ m' ρ' _ hagree
  refine ⟨fun c => Cert.ReferenceIdeal.Net.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Chain.W7_v37 m ρ c), (h c).2⟩)
      (Cert.KernelIdeal.RunValue.run_out m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    rw [Cert.ReferenceIdeal.Net.res_eq, e0, e1, e2, e3, e4, e5, e6, e7, e8, e9, e10, e11, e12, e13, e14, e15, e16]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
